-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x5120 : Shape := ⟨2, ![2048, 5120]⟩
abbrev S5120x17408 : Shape := ⟨2, ![5120, 17408]⟩
abbrev S_ : Shape := ⟨0, ![]⟩

class Facts : Prop where
  bitsLt_bf16_f32 : FTy.bits .bf16 < FTy.bits .f32
  bcast_S_S2048x5120 : S_.BroadcastsInDim S2048x5120 (![] : Fin 0 → Fin S2048x5120.rank)
  reducesTo_S2048x5120_S_d0_1 : S2048x5120.ReducesTo [0, 1] S_
  h_S_ : 0 < S_.numel
  bcast_S_S5120x17408 : S_.BroadcastsInDim S5120x17408 (![] : Fin 0 → Fin S5120x17408.rank)
  reducesTo_S5120x17408_S_d0_1 : S5120x17408.ReducesTo [0, 1] S_

variable [Facts]

def fn {F : FTy → Type} [FloatOps F] (main_arg0 : FVec F S2048x5120 .bf16) (main_arg1 : FVec F S5120x17408 .bf16) : IVec S_ 1 :=
  let main_v0 : FVec F S2048x5120 .f32 := (extf .f32 · bitsLt_bf16_f32) main_arg0
  let main_v1 : FVec F S2048x5120 .f32 := Host.absf main_v0
  let main_cst : FVec F S_ .f32 := constant S_ .f32 0x7F800000#32
  let main_v2 : FVec F S2048x5120 .f32 := broadcastInDim S2048x5120 ![] bcast_S_S2048x5120 main_cst
  let main_v3 : IVec S2048x5120 1 := cmpf .olt main_v1 main_v2
  let main_c : IVec S_ 1 := constantI S_ 1 1#1
  let main_v4 : IVec S_ 1 := (fun x v => Host.reduce IntOp.andi x v reducesTo_S2048x5120_S_d0_1 h_S_) main_v3 main_c
  let main_v5 : FVec F S5120x17408 .f32 := (extf .f32 · bitsLt_bf16_f32) main_arg1
  let main_v6 : FVec F S5120x17408 .f32 := Host.absf main_v5
  let main_cst_0 : FVec F S_ .f32 := constant S_ .f32 0x7F800000#32
  let main_v7 : FVec F S5120x17408 .f32 := broadcastInDim S5120x17408 ![] bcast_S_S5120x17408 main_cst_0
  let main_v8 : IVec S5120x17408 1 := cmpf .olt main_v6 main_v7
  let main_c_1 : IVec S_ 1 := constantI S_ 1 1#1
  let main_v9 : IVec S_ 1 := (fun x v => Host.reduce IntOp.andi x v reducesTo_S5120x17408_S_d0_1 h_S_) main_v8 main_c_1
  let main_v10 : IVec S_ 1 := andi main_v4 main_v9
  main_v10
-- ==== Kernel.lean ====
abbrev S2048x5120 : Shape := ⟨2, ![2048, 5120]⟩
abbrev S5120x17408 : Shape := ⟨2, ![5120, 17408]⟩
abbrev S2048x17408 : Shape := ⟨2, ![2048, 17408]⟩
abbrev S1024x2560 : Shape := ⟨2, ![1024, 2560]⟩
abbrev S2560x1024 : Shape := ⟨2, ![2560, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x5120, .bf16⟩
  | .hbm, ⟨1, _⟩ => ⟨S5120x17408, .bf16⟩
  | .hbm, ⟨2, _⟩ => ⟨S2048x17408, .bf16⟩
  | .local _ .vmem, ⟨0, _⟩ => ⟨S1024x2560, .bf16⟩
  | .local _ .vmem, ⟨1, _⟩ => ⟨S1024x2560, .bf16⟩
  | .local _ .vmem, ⟨2, _⟩ => ⟨S2560x1024, .bf16⟩
  | .local _ .vmem, ⟨3, _⟩ => ⟨S2560x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2048x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 17, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2560x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x2560_S1024x2560_0_0 : ∀ a, (![0, 0] : Fin 2 → Nat) a + S1024x2560.size a ≤ S1024x2560.size a
  h_S1024x2560 : 0 < S1024x2560.numel
  inb_S2560x1024_S2560x1024_0_0 : ∀ a, (![0, 0] : Fin 2 → Nat) a + S2560x1024.size a ≤ S2560x1024.size a
  h_S2560x1024 : 0 < S2560x1024.numel
  bitsLt_bf16_f32 : FTy.bits .bf16 < FTy.bits .f32
  packedbf16_S1024x1024_S1024x1024_0_0 : (Rect.unit (s := S1024x1024) ![0, 0] S1024x1024.size inb_S1024x1024_S1024x1024_0_0).PackedRows (EltTy.packing .bf16)
  dot_S1024x2560_S2560x1024_S1024x1024_1_0_0_1_n_n_wf : DotDims.WF S1024x2560 S2560x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2560.size a ≤ S2048x5120.size a
  hwx0_0 : ∀ i : grid0.Coords, EltTy.bits .bf16 = 32 ∨ (Rect.block (s := S2048x5120) S1024x2560.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2560x1024.size a ≤ S5120x17408.size a
  hwx0_1 : ∀ i : grid0.Coords, EltTy.bits .bf16 = 32 ∨ (Rect.block (s := S5120x17408) S2560x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S2048x17408.size a
  hwx0_2 : ∀ i : grid0.Coords, EltTy.bits .bf16 = 32 ∨ (Rect.block (s := S2048x17408) S1024x1024.size (cc0_transform_2 i) (hinb0_2 i)).WholeWords (EltTy.packing .bf16)

variable [Facts₀]

def dot_S1024x2560_S2560x1024_S1024x1024_1_0_0_1_n_n : DotDims S1024x2560 S2560x1024 S1024x1024 where
  lhsContracting := [1]
  rhsContracting := [0]
  lhsNonContracting := [0]
  rhsNonContracting := [1]
  lhsBatch := []
  rhsBatch := []
  wf := dot_S1024x2560_S2560x1024_S1024x1024_1_0_0_1_n_n_wf

abbrev win0_0 : Pipeline.Window sig grid0 :=
  Pipeline.Window.ofSpec (Memref.whole main_arg0) S1024x2560.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2560x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S2048x5120 : Shape := ⟨2, ![2048, 5120]⟩
abbrev S5120x17408 : Shape := ⟨2, ![5120, 17408]⟩
abbrev S2048x17408 : Shape := ⟨2, ![2048, 17408]⟩

abbrev nBuf : Space → Nat
  | .hbm => 4
  | .vmem => 0
  | .smem => 0
  | _ => 0

abbrev bufTy : (tb : Table) → Fin (tcTables nBuf tb) → BufTy
  | .hbm, ⟨0, _⟩ => ⟨S2048x5120, .bf16⟩
  | .hbm, ⟨1, _⟩ => ⟨S5120x17408, .bf16⟩
  | .hbm, ⟨2, _⟩ => ⟨S2048x17408, .f32⟩
  | .hbm, ⟨3, _⟩ => ⟨S2048x17408, .bf16⟩
  | _, _ => ⟨S2048x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  bitsLt_bf16_f32 : FTy.bits .bf16 < FTy.bits .f32
  dot_S2048x5120_S5120x17408_S2048x17408_1_0_0_1_n_n_wf : DotDims.WF S2048x5120 S5120x17408 S2048x17408 [1] [0] [0] [1] [] []

variable [Facts₀]

def dot_S2048x5120_S5120x17408_S2048x17408_1_0_0_1_n_n : DotDims S2048x5120 S5120x17408 S2048x17408 where
  lhsContracting := [1]
  rhsContracting := [0]
  lhsNonContracting := [0]
  rhsNonContracting := [1]
  lhsBatch := []
  rhsBatch := []
  wf := dot_S2048x5120_S5120x17408_S2048x17408_1_0_0_1_n_n_wf

class Facts : Prop extends Facts₀ where

variable [Facts]
-- ==== Proof.CasePieces.lean ====
/-
  What one grid step leaves behind, as a value. The grid's last axis walks the two halves of the contraction axis.
  At a first-half step the accumulator is zeroed, read back, and the half's product added: the accumulator ends at
  `0 + xa·wa`. At a second-half step the accumulator found is read, the half's product added and stored, the sum read
  back and written (format change only) to the output block: the block ends at `acc + xb·wb`.
  Both hold at any float instance: they are statements about which stores a step's loads read, not about arithmetic.
-/
import proofs.«161988_j2078764171688_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- Every store and load of the body starts at the origin of its buffer. -/
theorem origin : (![0, 0] : Fin 2 → Nat) = fun _ => 0 := funext fun a => by fin_cases a <;> rfl

/-- A FIRST-HALF step leaves in the accumulator the zero block plus the product of the step's two input blocks:
    the zero store is covered by the second store, whose payload read the zero block back. -/
theorem acc_after_first (c : Dev nD) (i : grid0.Coords) (a3 : Memref sig .tc .vmem S1024x2560 .bf16) (h3 : a3.IsWhole)
    (a4 : Memref sig .tc .vmem S2560x1024 .bf16) (h4 : a4.IsWhole) (a5 : Memref sig .tc .vmem S1024x1024 .bf16) (h5 : a5.IsWhole)
    (a6 : Memref sig .tc .vmem S1024x1024 .f32) (h6 : a6.IsWhole) (hc0 : cond0_0 i) (hc1 : ¬cond0_1 i)
    (x0 : Vec F S1024x2560 .bf16) (x1 : Vec F S2560x1024 .bf16) :
    sout0_A_0 c i a3 h3 a4 h4 a5 h5 a6 h6 hc0 hc1 x0 x1 = k0_pay2 (k0_pay1 (F := F)) x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) origin, View.readCov_unit_zero (S := S1024x1024) _ origin]
  simp only [View.readAt_eq_ld, h3.read_unread, h4.read_unread, View.ld_unit_zero (S := S1024x2560) origin,
    View.ld_unit_zero (S := S2560x1024) origin]

/-- A SECOND-HALF step leaves in the output block the accumulator it found plus the product of the step's two input
    blocks, narrowed to the output's format: the output's one store reads back the accumulator's one store. -/
theorem out_after_second (c : Dev nD) (i : grid0.Coords) (a3 : Memref sig .tc .vmem S1024x2560 .bf16) (h3 : a3.IsWhole)
    (a4 : Memref sig .tc .vmem S2560x1024 .bf16) (h4 : a4.IsWhole) (a5 : Memref sig .tc .vmem S1024x1024 .bf16) (h5 : a5.IsWhole)
    (a6 : Memref sig .tc .vmem S1024x1024 .f32) (h6 : a6.IsWhole) (hc0 : ¬cond0_0 i) (hc1 : cond0_1 i)
    (x0 : Vec F S1024x2560 .bf16) (x1 : Vec F S2560x1024 .bf16) (acc : Vec F S1024x1024 .f32) :
    out0_B_2 c i a3 h3 a4 h4 a5 h5 a6 h6 hc0 hc1 x0 x1 acc = k0_pay3 (k0_pay2 acc x0 x1) := by
  unfold out0_B_2
  rw [View.read_writes_eq_canon _ _ _ (cover0_B_2 c i a3 h3 a4 h4 a5 h5 a6 h6 hc0 hc1 x0 x1 acc)]
  unfold kernelRun0_B
  dsimp only
  sl_unfold_words
  rw [View.canon_unit_zero (S := S1024x1024) origin, View.readCov_unit_zero (S := S1024x1024) _ origin]
  simp only [View.readAt_eq_ld, h3.read_unread, h4.read_unread, h6.read_unread, View.ld_unit_zero (S := S1024x2560) origin,
    View.ld_unit_zero (S := S2560x1024) origin, View.ld_unit_zero (S := S1024x1024) origin]

end Cert.KernelIdeal.Pieces

end
-- ==== Proof.HalfProducts.lean ====
/-
  The arithmetic of the two grid steps that fill one output block, read at one entry, over the extended reals.
  One step's matrix product into a zero accumulator, at row `p` and column `q` of the block, is the sum over the
  step's 2560 contraction indices of `x[p,k] · w[k,q]`. So the block's entry after a first-half step followed by a
  second-half step is `(0 + Σ_k xa[p,k]·wa[k,q]) + Σ_k xb[p,k]·wb[k,q]`; the final narrowing to the output's format
  changes nothing over the extended reals.
-/
import proofs.«161988_j2078764171688_2_alg».proof.Proof.Gen.KernelIdeal.Skeleton
import Idealize.ShloMosaic.Lib.Pipeline.Value
import Idealize.ShloMosaic.Lib.ValueIdx
import Idealize.ShloMosaic.PureOps.Ideal.Laws

noncomputable section

open Idealize.ShloMosaic Idealize.ShloMosaic.TcCoe Idealize.ShloMosaic.ValueIdx

namespace Cert.KernelIdeal.HalfProducts

open Cert.KernelIdeal Cert.KernelIdeal.Gen

/-- The block product's dimension numbers: rows of the left block against columns of the right block, contracting the
    left block's columns with the right block's rows. -/
abbrev dims : DotDims S1024x2560 S2560x1024 S1024x1024 := dot_S1024x2560_S2560x1024_S1024x1024_1_0_0_1_n_n

/-- The left operand's row is the output's row. -/
theorem left_row (j : S1024x1024.Idx) (r : dims.contr.Idx) : (dims.lhsIdx j r 0).val = (j 0).val := by
  unfold DotDims.lhsIdx
  rw [dif_neg (show ¬(0 : Fin S1024x2560.rank) ∈ dims.lhsBatch by decide), dif_pos (show (0 : Fin S1024x2560.rank) ∈ dims.lhsNonContracting by decide)]
  rfl

/-- The right operand's column is the output's column. -/
theorem right_col (j : S1024x1024.Idx) (r : dims.contr.Idx) : (dims.rhsIdx j r 1).val = (j 1).val := by
  unfold DotDims.rhsIdx
  rw [dif_neg (show ¬(1 : Fin S2560x1024.rank) ∈ dims.rhsBatch by decide), dif_pos (show (1 : Fin S2560x1024.rank) ∈ dims.rhsNonContracting by decide)]
  rfl

/-- One step's product into the zero accumulator, at entry `(p, q)` of the block: the sum over the step's contraction
    indices of the left block's row `p` times the right block's column `q`. -/
theorem product_entry (x : FVec Ideal S1024x2560 .bf16) (w : FVec Ideal S2560x1024 .bf16) (p q : Fin 1024) :
    FloatOps.matmul dims none x w (constant (F := Ideal) S1024x1024 .f32 0x00000000#32) (ix2 p q)
      = ∑ k : Fin 2560, x (ix2 p k) * w (ix2 k q) := by
  rw [Ideal.matmul_constant_zero_apply, ← Equiv.sum_comp (contrEquiv1 dims 2560 rfl rfl).symm]
  refine Finset.sum_congr rfl fun k _ => ?_
  have hk := contrEquiv1_symm_val dims 2560 rfl rfl k
  have el : dims.lhsIdx (ix2 p q) ((contrEquiv1 dims 2560 rfl rfl).symm k) = ix2 p k := funext fun a => Fin.ext (by
    match a with
    | ⟨0, _⟩ => exact left_row _ _
    | ⟨1, _⟩ => exact (dims.lhsIdx_val_of_single rfl _ _).trans hk)
  have er : dims.rhsIdx (ix2 p q) ((contrEquiv1 dims 2560 rfl rfl).symm k) = ix2 k q := funext fun a => Fin.ext (by
    match a with
    | ⟨0, _⟩ => exact (dims.rhsIdx_val_of_single rfl _ _).trans hk
    | ⟨1, _⟩ => exact right_col _ _)
  rw [el, er]

/-- The accumulating step at an entry: what was there plus the step's product. -/
theorem step_entry (acc : FVec Ideal S1024x1024 .f32) (x : FVec Ideal S1024x2560 .bf16) (w : FVec Ideal S2560x1024 .bf16)
    (p q : Fin 1024) :
    k0_pay2 (F := Ideal) acc x w (ix2 p q) = acc (ix2 p q) + ∑ k : Fin 2560, x (ix2 p k) * w (ix2 k q) := by
  unfold k0_pay2
  refine (congrFun (shapeCast_self _ _) (ix2 p q)).trans ?_
  exact congrArg (acc (ix2 p q) + ·) (product_entry x w p q)

/-- The zero block at an entry is zero. -/
theorem zero_entry (p q : Fin 1024) : k0_pay1 (F := Ideal) (ix2 p q) = 0 := by
  unfold k0_pay1
  refine (congrFun (shapeCast_self _ _) (ix2 p q)).trans ?_
  exact Ideal.ofBits_zero_f32

/-- AN OUTPUT BLOCK'S ENTRY after its two steps: zero, plus the first half's product, plus the second half's. -/
theorem block_entry (xa : FVec Ideal S1024x2560 .bf16) (wa : FVec Ideal S2560x1024 .bf16)
    (xb : FVec Ideal S1024x2560 .bf16) (wb : FVec Ideal S2560x1024 .bf16) (p q : Fin 1024) :
    k0_pay3 (F := Ideal) (k0_pay2 (F := Ideal) (k0_pay2 (F := Ideal) (k0_pay1 (F := Ideal)) xa wa) xb wb) (ix2 p q)
      = (0 + ∑ k : Fin 2560, xa (ix2 p k) * wa (ix2 k q)) + ∑ k : Fin 2560, xb (ix2 p k) * wb (ix2 k q) := by
  show k0_pay2 (F := Ideal) (k0_pay2 (F := Ideal) (k0_pay1 (F := Ideal)) xa wa) xb wb (ix2 p q) = _
  rw [step_entry, step_entry, zero_entry]

end Cert.KernelIdeal.HalfProducts

end
-- ==== Proof.SplitSum.lean ====
/-
  A sum over the 5120 contraction indices is the sum over the first 2560 of them plus the sum over the last 2560:
  the one law that joins a product accumulated over two halves of the contraction axis to the whole product.
  It holds in any additive commutative monoid, so on the extended reals it needs no finiteness.
-/
import Mathlib.Algebra.BigOperators.Fin

namespace Cert.SplitSum

/-- Index `k` of the first half, as a contraction index. -/
abbrev lo (k : Fin 2560) : Fin 5120 := ⟨k.val, Nat.lt_of_lt_of_le k.isLt (by decide)⟩

/-- Index `k` of the second half, as a contraction index. -/
abbrev hi (k : Fin 2560) : Fin 5120 := ⟨2560 + k.val, by have := k.isLt; omega⟩

/-- Zero, plus the first half's sum, plus the second half's sum, is the whole sum. -/
theorem halves {M : Type*} [AddCommMonoid M] (f : Fin 5120 → M) :
    (0 + ∑ k : Fin 2560, f (lo k)) + ∑ k : Fin 2560, f (hi k) = ∑ k : Fin 5120, f k := by
  rw [zero_add]
  exact (Fin.sum_univ_add (a := 2560) (b := 2560) f).symm

end Cert.SplitSum
-- ==== Proof.WholeProduct.lean ====
/-
  The result both programs compute, as one function of the two argument arrays over the extended reals:
  entry `(r, s)` of the [2048, 17408] result is the sum over all 5120 contraction indices `k` of `X[r,k] · W[k,s]`.
-/
import Idealize.ShloMosaic.Lib.ValueIdx
import Idealize.ShloMosaic.PureOps.Ideal

noncomputable section

open Idealize.ShloMosaic Idealize.ShloMosaic.ValueIdx

namespace Cert.WholeProduct

/-- The row of a result index, as a row of the left argument. -/
abbrev row (i : (⟨2, ![2048, 17408]⟩ : Shape).Idx) : Fin 2048 := ⟨(i 0).val, idx2_lt0 i⟩

/-- The column of a result index, as a column of the right argument. -/
abbrev col (i : (⟨2, ![2048, 17408]⟩ : Shape).Idx) : Fin 17408 := ⟨(i 1).val, idx2_lt1 i⟩

/-- The matrix product `X · W`, entry by entry. -/
def product (X : (⟨2, ![2048, 5120]⟩ : Shape).Idx → EReal) (W : (⟨2, ![5120, 17408]⟩ : Shape).Idx → EReal) :
    (⟨2, ![2048, 17408]⟩ : Shape).Idx → EReal :=
  fun i => ∑ k : Fin 5120, X (ix2 (row i) k) * W (ix2 k (col i))

end Cert.WholeProduct

end
-- ==== Proof.KernelProduct.lean ====
/-
  What the kernel's result array holds after the run: the whole matrix product of its two arguments.
  The grid has 2 × 17 × 2 points; point `t = 34·R + 2·C + h` works on row block `R` (1024 rows), column block `C`
  (1024 columns) and half `h` of the contraction axis (2560 indices). The output block `(R, C)` is written back once,
  at the odd point of its pair, and holds there `(0 + xa·wa) + xb·wb` of the pair's four input blocks: the even point
  left `0 + xa·wa` in the accumulator, the odd point added `xb·wb`. The input blocks are the arguments read at rows
  `1024·R + p`, columns `1024·C + q` and contraction indices `k` and `2560 + k`, so by the split of the contraction sum
  the block is the matching block of `X · W`; the 34 written blocks tile the result.
-/
import proofs.«161988_j2078764171688_2_alg».proof.Proof.Gen.KernelIdeal.Value
import proofs.«161988_j2078764171688_2_alg».proof.Proof.CasePieces
import proofs.«161988_j2078764171688_2_alg».proof.Proof.HalfProducts
import proofs.«161988_j2078764171688_2_alg».proof.Proof.SplitSum
import proofs.«161988_j2078764171688_2_alg».proof.Proof.WholeProduct

noncomputable section

open Idealize.ShloMosaic Idealize.ShloMosaic.TcCoe Idealize.SL.Sem Idealize.ShloMosaic.ValueIdx
open Idealize.ShloMosaic.Pipeline (Dat)

namespace Cert.KernelIdeal.Product

open Cert.KernelIdeal Cert.KernelIdeal.Gen Cert.WholeProduct

/-! ## One entry of one output block, from the pair's four input blocks -/

/-- If the four blocks are the arguments' entries at row block `R`, column block `C` and the two contraction halves,
    the block's entry `y` after the pair of steps is the product's entry at the matching place `i` of the result. -/
theorem entry_of_blocks (X : S2048x5120.Idx → EReal) (W : S5120x17408.Idx → EReal)
    (xa : FVec Ideal S1024x2560 .bf16) (wa : FVec Ideal S2560x1024 .bf16)
    (xb : FVec Ideal S1024x2560 .bf16) (wb : FVec Ideal S2560x1024 .bf16)
    (y : S1024x1024.Idx) (i : S2048x17408.Idx) (R C : Nat)
    (hxa : ∀ (p : Fin 1024) (k : Fin 2560) (j : S2048x5120.Idx), (j 0).val = 1024 * R + p.val → (j 1).val = k.val →
      xa (ix2 p k) = X j)
    (hwa : ∀ (k : Fin 2560) (q : Fin 1024) (j : S5120x17408.Idx), (j 0).val = k.val → (j 1).val = 1024 * C + q.val →
      wa (ix2 k q) = W j)
    (hxb : ∀ (p : Fin 1024) (k : Fin 2560) (j : S2048x5120.Idx), (j 0).val = 1024 * R + p.val → (j 1).val = 2560 + k.val →
      xb (ix2 p k) = X j)
    (hwb : ∀ (k : Fin 2560) (q : Fin 1024) (j : S5120x17408.Idx), (j 0).val = 2560 + k.val → (j 1).val = 1024 * C + q.val →
      wb (ix2 k q) = W j)
    (hi0 : (i 0).val = 1024 * R + (y 0).val) (hi1 : (i 1).val = 1024 * C + (y 1).val) :
    k0_pay3 (F := Ideal) (k0_pay2 (F := Ideal) (k0_pay2 (F := Ideal) (k0_pay1 (F := Ideal)) xa wa) xb wb) y = product X W i := by
  obtain ⟨p, q, rfl⟩ : ∃ (p q : Fin 1024), y = ix2 p q := ⟨y 0, y 1, eq_ix2 y⟩
  rw [HalfProducts.block_entry]
  unfold product
  rw [← Cert.SplitSum.halves (fun k => X (ix2 (row i) k) * W (ix2 k (col i)))]
  have ea : ∀ k : Fin 2560, xa (ix2 p k) * wa (ix2 k q) = X (ix2 (row i) (Cert.SplitSum.lo k)) * W (ix2 (Cert.SplitSum.lo k) (col i)) :=
    fun k => by rw [hxa p k (ix2 (row i) (Cert.SplitSum.lo k)) hi0 rfl, hwa k q (ix2 (Cert.SplitSum.lo k) (col i)) rfl hi1]
  have eb : ∀ k : Fin 2560, xb (ix2 p k) * wb (ix2 k q) = X (ix2 (row i) (Cert.SplitSum.hi k)) * W (ix2 (Cert.SplitSum.hi k) (col i)) :=
    fun k => by rw [hxb p k (ix2 (row i) (Cert.SplitSum.hi k)) hi0 rfl, hwb k q (ix2 (Cert.SplitSum.hi k) (col i)) rfl hi1]
  rw [Finset.sum_congr rfl fun k _ => ea k, Finset.sum_congr rfl fun k _ => eb k]

/-! ## The grid: which blocks a point works on -/

variable (m : (ℓ : Loc nD τ sig) → Buf (Elt Ideal) ℓ) (ρ : Dev nD → PrngReg)

/-- The three index maps over the grid: point `t` is row block `t / 34`, column block `t / 2 % 17`, half `t % 2`. -/
theorem block_indices : ∀ t : Fin cfg0.N,
    win0_0.index t (0 : Fin 2) = t.val / 34 ∧ win0_0.index t (1 : Fin 2) = t.val % 2
    ∧ win0_1.index t (0 : Fin 2) = t.val % 2 ∧ win0_1.index t (1 : Fin 2) = t.val / 2 % 17
    ∧ win0_2.index t (0 : Fin 2) = t.val / 34 ∧ win0_2.index t (1 : Fin 2) = t.val / 2 % 17 :=
  (by decide +kernel : ∀ t : Fin grid0.N, _)

/-- The left input block at a point, read at an entry, is the left argument at the block's place. -/
theorem left_block_entry (c : Dev nD) (t : Fin cfg0.N) (p : Fin 1024) (k : Fin 2560) (j : S2048x5120.Idx)
    (h0 : (j 0).val = 1024 * (t.val / 34) + p.val) (h1 : (j 1).val = 2560 * (t.val % 2) + k.val) :
    (iblk m c 0 t : Vec Ideal S1024x2560 .bf16) (ix2 p k) = m ((c : Thread nD τ).loc main_arg0) j := by
  obtain ⟨e0, e1, -⟩ := block_indices t
  unfold iblk
  rw [View.read_apply]
  show V m c main_arg0 _ = m ((c : Thread nD τ).loc main_arg0) j
  refine congrArg (m ((c : Thread nD τ).loc main_arg0)) ?_
  funext a
  apply Fin.ext
  match a with
  | ⟨0, _⟩ => show win0_0.index t (0 : Fin 2) * 1024 + 1 * p.val = (j 0).val; rw [e0, h0]; omega
  | ⟨1, _⟩ => show win0_0.index t (1 : Fin 2) * 2560 + 1 * k.val = (j 1).val; rw [e1, h1]; omega

/-- The right input block at a point, read at an entry, is the right argument at the block's place. -/
theorem right_block_entry (c : Dev nD) (t : Fin cfg0.N) (k : Fin 2560) (q : Fin 1024) (j : S5120x17408.Idx)
    (h0 : (j 0).val = 2560 * (t.val % 2) + k.val) (h1 : (j 1).val = 1024 * (t.val / 2 % 17) + q.val) :
    (iblk m c 1 t : Vec Ideal S2560x1024 .bf16) (ix2 k q) = m ((c : Thread nD τ).loc main_arg1) j := by
  obtain ⟨-, -, e2, e3, -⟩ := block_indices t
  unfold iblk
  rw [View.read_apply]
  show V m c main_arg1 _ = m ((c : Thread nD τ).loc main_arg1) j
  refine congrArg (m ((c : Thread nD τ).loc main_arg1)) ?_
  funext a
  apply Fin.ext
  match a with
  | ⟨0, _⟩ => show win0_1.index t (0 : Fin 2) * 2560 + 1 * k.val = (j 0).val; rw [e2, h0]; omega
  | ⟨1, _⟩ => show win0_1.index t (1 : Fin 2) * 1024 + 1 * q.val = (j 1).val; rw [e3, h1]; omega

/-! ## What the odd point of a pair writes back -/

/-- After an even point the accumulator holds zero plus that point's product. -/
theorem acc_after_even (c : Dev nD) (s : Fin cfg0.N) (h0 : s.val % 2 = 0) :
    (outsAt0 m c s.val s.isLt).2 = k0_pay2 (F := Ideal) (k0_pay1 (F := Ideal)) (iblk m c 0 s) (iblk m c 1 s) := by
  have h1 : ¬s.val % 2 = 1 := by omega
  rw [outsAt0_A m c s h0 h1]
  dsimp only
  exact Pieces.acc_after_first c (grid0.coords s) (ms0_0 s) (hs0_0 s) (ms0_1 s) (hs0_1 s) (ms0_2 s) (hs0_2 s) scM0_0
    (Memref.isWhole_whole _) ((hcond0_0 s).mpr h0) (fun h => h1 ((hcond0_1 s).mp h)) (iblk m c 0 s) (iblk m c 1 s)

/-- WHAT A WRITING POINT WRITES BACK is its block of the whole product of the arguments. -/
theorem flushed_eq (c : Dev nD) (t : Fin cfg0.N) (hf : (cfg0.win 2).flush t = true) :
    (dats m 0 c).flushed 2 t = ((cfg0.win 2).blk t).view.read (Elt Ideal)
      (product (m ((c : Thread nD τ).loc main_arg0)) (m ((c : Thread nD τ).loc main_arg1))) := by
  have hN : t.val < 68 := lt_of_lt_of_eq t.isLt (show cfg0.N = 68 from N_0)
  have h1 : t.val % 2 = 1 := (flush0_2 t).mp hf
  have h0 : ¬t.val % 2 = 0 := by omega
  have hlt : t.val - 1 < cfg0.N := Nat.lt_of_le_of_lt (Nat.sub_le _ _) t.isLt
  obtain ⟨-, -, -, -, e4, e5⟩ := block_indices t
  rw [Value.flushed2_B m c t h0 h1, Pieces.out_after_second]
  have hacc := acc_after_even m c ⟨t.val - 1, hlt⟩ (by show (t.val - 1) % 2 = 0; omega)
  rw [show (outsAt0 m c (t.val - 1) (Nat.lt_of_le_of_lt (Nat.sub_le _ _) t.isLt)).2
      = k0_pay2 (F := Ideal) (k0_pay1 (F := Ideal)) (iblk m c 0 ⟨t.val - 1, hlt⟩) (iblk m c 1 ⟨t.val - 1, hlt⟩) from hacc]
  funext y
  refine entry_of_blocks (m ((c : Thread nD τ).loc main_arg0)) (m ((c : Thread nD τ).loc main_arg1))
    (iblk m c 0 ⟨t.val - 1, hlt⟩) (iblk m c 1 ⟨t.val - 1, hlt⟩) (iblk m c 0 t) (iblk m c 1 t)
    ((cfg0.win 2).xinj (grid0.coords t) y) (((cfg0.win 2).blk t).view.emb y) (t.val / 34) (t.val / 2 % 17) ?_ ?_ ?_ ?_ ?_ ?_
  · intro p k j hj0 hj1
    exact left_block_entry m c ⟨t.val - 1, hlt⟩ p k j (by show (j 0).val = 1024 * ((t.val - 1) / 34) + p.val; omega)
      (by show (j 1).val = 2560 * ((t.val - 1) % 2) + k.val; omega)
  · intro k q j hj0 hj1
    exact right_block_entry m c ⟨t.val - 1, hlt⟩ k q j (by show (j 0).val = 2560 * ((t.val - 1) % 2) + k.val; omega)
      (by show (j 1).val = 1024 * ((t.val - 1) / 2 % 17) + q.val; omega)
  · intro p k j hj0 hj1
    exact left_block_entry m c t p k j hj0 (by omega)
  · intro k q j hj0 hj1
    exact right_block_entry m c t k q j (by omega) hj1
  · show win0_2.index t (0 : Fin 2) * 1024 + 1 * (y 0).val = 1024 * (t.val / 34) + (y 0).val
    rw [e4]; omega
  · show win0_2.index t (1 : Fin 2) * 1024 + 1 * (y 1).val = 1024 * (t.val / 2 % 17) + (y 1).val
    rw [e5]; omega

/-! ## The written blocks tile the result -/

/-- An index of the result is in point `t`'s block iff each coordinate is in the block's range on its axis. -/
theorem mem_block (t : Fin cfg0.N) (i : S2048x17408.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v0).slice (win0_2.rect t)).set ↔ _
  rw [View.set_slice_whole, Rect.mem_set_unit]
  exact Iff.rfl

/-- Every index of the result lies in the block of the odd point of its row block and column block. -/
theorem covered (i : S2048x17408.Idx) :
    ∃ t : Fin cfg0.N, (cfg0.win 2).flush t = true ∧ i ∈ ((cfg0.win 2).blk t).view.set := by
  have hi0 : (i 0).val < 2048 := (i 0).isLt
  have hi1 : (i 1).val < 17408 := (i 1).isLt
  have hN : cfg0.N = 68 := N_0
  refine ⟨⟨34 * ((i 0).val / 1024) + 2 * ((i 1).val / 1024) + 1, by rw [hN]; omega⟩, ?_, ?_⟩
  · exact (flush0_2 _).mpr (by show (34 * ((i 0).val / 1024) + 2 * ((i 1).val / 1024) + 1) % 2 = 1; omega)
  · obtain ⟨-, -, -, -, e4, e5⟩ := block_indices ⟨34 * ((i 0).val / 1024) + 2 * ((i 1).val / 1024) + 1, by rw [hN]; omega⟩
    rw [mem_block]
    intro a
    match a with
    | ⟨0, _⟩ =>
      show win0_2.index _ (0 : Fin 2) * 1024 ≤ (i 0).val ∧ (i 0).val < win0_2.index _ (0 : Fin 2) * 1024 + 1024
      rw [e4]
      show (34 * ((i 0).val / 1024) + 2 * ((i 1).val / 1024) + 1) / 34 * 1024 ≤ (i 0).val ∧ (i 0).val < (34 * ((i 0).val / 1024) + 2 * ((i 1).val / 1024) + 1) / 34 * 1024 + 1024
      omega
    | ⟨1, _⟩ =>
      show win0_2.index _ (1 : Fin 2) * 1024 ≤ (i 1).val ∧ (i 1).val < win0_2.index _ (1 : Fin 2) * 1024 + 1024
      rw [e5]
      show (34 * ((i 0).val / 1024) + 2 * ((i 1).val / 1024) + 1) / 2 % 17 * 1024 ≤ (i 1).val ∧ (i 1).val < (34 * ((i 0).val / 1024) + 2 * ((i 1).val / 1024) + 1) / 2 % 17 * 1024 + 1024
      omega

/-- THE RESULT ARRAY after the run is the whole product of the arguments. -/
theorem final (c : Dev nD) : (dats m 0 c).arrAt 2 cfg0.N
    = product (m ((c : Thread nD τ).loc main_arg0)) (m ((c : Thread nD τ).loc main_arg1)) :=
  (dats m 0 c).arrAt_eq_of_cover 2 _ (flushed_eq m c) covered

/-- The kernel's run: it terminates with the result at the whole product and the arguments unchanged. -/
theorem run : θ_run defs (onTc (τ := τ) (main (F := Ideal))) ⟨m, fun _ => 0, ρ⟩ fun r => ∀ c : Dev nD,
      r.2.mem ((c : Thread nD τ).loc main_v0) = product (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Product

end
-- ==== Proof.ReferenceProduct.lean ====
/-
  The reference computes the whole matrix product: its one contraction over all 5120 indices, narrowed to the output's
  format (no change over the extended reals), is `X · W` entry by entry.
-/
import proofs.«161988_j2078764171688_2_alg».proof.Proof.Gen.ReferenceIdeal.Read
import proofs.«161988_j2078764171688_2_alg».proof.Proof.WholeProduct

noncomputable section

open Idealize.ShloMosaic Idealize.ShloMosaic.TcCoe Idealize.ShloMosaic.ValueIdx

namespace Cert.ReferenceIdeal.Product

open Cert.ReferenceIdeal Cert.ReferenceIdeal.Gen Cert.WholeProduct

/-- The left operand's index at result index `i` and contraction index `k` is row `i`'s entry `k`. -/
theorem left_index (i : S2048x17408.Idx) (k : Fin 5120) : Read.lidx_main_v0 i k = ix2 (row i) k :=
  funext fun a => Fin.ext (by match a with | ⟨0, _⟩ => rfl | ⟨1, _⟩ => rfl)

/-- The right operand's index is column `i`'s entry `k`. -/
theorem right_index (i : S2048x17408.Idx) (k : Fin 5120) : Read.ridx_main_v0 i k = ix2 k (col i) :=
  funext fun a => Fin.ext (by match a with | ⟨0, _⟩ => rfl | ⟨1, _⟩ => rfl)

/-- The reference's result is the whole product of its arguments. -/
theorem result_eq (X : (⟨S2048x5120, .bf16⟩ : BufTy).Contents (Elt Ideal)) (W : (⟨S5120x17408, .bf16⟩ : BufTy).Contents (Elt Ideal)) :
    Read.val_main_v1 (F := Ideal) X W = product X W := by
  funext i
  refine (Read.val_main_v1_apply X W i).trans ?_
  show Read.val_main_v0 (F := Ideal) X W i = _
  rw [Read.val_main_v0_apply]
  unfold product
  exact Finset.sum_congr rfl fun k _ => by rw [left_index, right_index]

end Cert.ReferenceIdeal.Product

end
-- ==== Proof.lean ====
/-
  A [2048, 5120] × [5120, 17408] matrix product, computed by a kernel that tiles the result into 1024 × 1024 blocks and
  walks the contraction axis in two halves of 2560, accumulating in a scratch block zeroed at the first half and written
  out (narrowed to the output's format) after the second — against one contraction over all 5120 indices.
  Over the extended reals both are `Σ_k X[r,k] · W[k,s]`: the kernel's entry is `(0 + Σ_{k<2560} …) + Σ_{2560≤k} …`, which is
  the whole sum because addition of extended reals is associative and commutative and `0` is neutral (no finiteness is
  needed, so the precondition is never opened). The kernel's idealization rewrote nothing, so `preserves` is `True`.
  The frames are the generated ones; the reference's frame is its run with the result dropped.
-/
import proofs.«161988_j2078764171688_2_alg».proof.Defs
import proofs.«161988_j2078764171688_2_alg».proof.Proof.Gen.Kernel
import proofs.«161988_j2078764171688_2_alg».proof.Proof.Gen.Kernel.Skeleton
import proofs.«161988_j2078764171688_2_alg».proof.Proof.Gen.Kernel.Launch
import proofs.«161988_j2078764171688_2_alg».proof.Proof.Gen.Kernel.Points
import proofs.«161988_j2078764171688_2_alg».proof.Proof.Gen.Kernel.Frame
import proofs.«161988_j2078764171688_2_alg».proof.Proof.Gen.KernelIdeal
import proofs.«161988_j2078764171688_2_alg».proof.Proof.Gen.KernelIdeal.Skeleton
import proofs.«161988_j2078764171688_2_alg».proof.Proof.Gen.KernelIdeal.Launch
import proofs.«161988_j2078764171688_2_alg».proof.Proof.Gen.KernelIdeal.Points
import proofs.«161988_j2078764171688_2_alg».proof.Proof.Gen.KernelIdeal.Frame
import proofs.«161988_j2078764171688_2_alg».proof.Proof.Gen.ReferenceIdeal
import proofs.«161988_j2078764171688_2_alg».proof.Proof.Gen.Pre_finite_inputs
import proofs.«161988_j2078764171688_2_alg».proof.Proof.Gen.KernelIdeal.Value
import proofs.«161988_j2078764171688_2_alg».proof.Proof.Gen.ReferenceIdeal.Run
import proofs.«161988_j2078764171688_2_alg».proof.Proof.Gen.ReferenceIdeal.Read
import proofs.«161988_j2078764171688_2_alg».proof.Proof.KernelProduct
import proofs.«161988_j2078764171688_2_alg».proof.Proof.ReferenceProduct
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference runs and leaves its arguments unchanged: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Over the extended reals the kernel's result array ends at the whole product of its arguments, and the reference's
    at the whole product of arguments that agree with them. -/
theorem algebraic : Cert.algebraic_KernelIdeal_ReferenceIdeal := by
  intro m ρ m' ρ' _ hagree
  refine ⟨fun c => Cert.WholeProduct.product (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.Product.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v1_eq, Cert.ReferenceIdeal.Product.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
